-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x24 : Shape := ⟨4, ![2, 8, 2048, 24]⟩
abbrev S2x8x2048x2048 : Shape := ⟨4, ![2, 8, 2048, 2048]⟩
abbrev S_ : Shape := ⟨0, ![]⟩

class Facts : Prop where
  bcast_S_S2x8x2048x24 : S_.BroadcastsInDim S2x8x2048x24 (![] : Fin 0 → Fin S2x8x2048x24.rank)
  reducesTo_S2x8x2048x24_S_d0_1_2_3 : S2x8x2048x24.ReducesTo [0, 1, 2, 3] S_
  h_S_ : 0 < S_.numel

variable [Facts]

def fn {F : FTy → Type} [FloatOps F] (main_arg0 : FVec F S2x8x2048x24 .f32) (main_arg1 : FVec F S2x8x2048x24 .f32) (main_arg2 : FVec F S2x8x2048x24 .f32) (main_arg3 : IVec S2x8x2048x2048 1) : IVec S_ 1 :=
  let main_v0 : FVec F S2x8x2048x24 .f32 := Host.absf main_arg0
  let main_cst : FVec F S_ .f32 := constant S_ .f32 0x7F800000#32
  let main_v1 : FVec F S2x8x2048x24 .f32 := broadcastInDim S2x8x2048x24 ![] bcast_S_S2x8x2048x24 main_cst
  let main_v2 : IVec S2x8x2048x24 1 := cmpf .olt main_v0 main_v1
  let main_c : IVec S_ 1 := constantI S_ 1 1#1
  let main_v3 : IVec S_ 1 := (fun x v => Host.reduce IntOp.andi x v reducesTo_S2x8x2048x24_S_d0_1_2_3 h_S_) main_v2 main_c
  let main_v4 : FVec F S2x8x2048x24 .f32 := Host.absf main_arg1
  let main_cst_0 : FVec F S_ .f32 := constant S_ .f32 0x7F800000#32
  let main_v5 : FVec F S2x8x2048x24 .f32 := broadcastInDim S2x8x2048x24 ![] bcast_S_S2x8x2048x24 main_cst_0
  let main_v6 : IVec S2x8x2048x24 1 := cmpf .olt main_v4 main_v5
  let main_c_1 : IVec S_ 1 := constantI S_ 1 1#1
  let main_v7 : IVec S_ 1 := (fun x v => Host.reduce IntOp.andi x v reducesTo_S2x8x2048x24_S_d0_1_2_3 h_S_) main_v6 main_c_1
  let main_v8 : IVec S_ 1 := andi main_v3 main_v7
  let main_v9 : FVec F S2x8x2048x24 .f32 := Host.absf main_arg2
  let main_cst_2 : FVec F S_ .f32 := constant S_ .f32 0x7F800000#32
  let main_v10 : FVec F S2x8x2048x24 .f32 := broadcastInDim S2x8x2048x24 ![] bcast_S_S2x8x2048x24 main_cst_2
  let main_v11 : IVec S2x8x2048x24 1 := cmpf .olt main_v9 main_v10
  let main_c_3 : IVec S_ 1 := constantI S_ 1 1#1
  let main_v12 : IVec S_ 1 := (fun x v => Host.reduce IntOp.andi x v reducesTo_S2x8x2048x24_S_d0_1_2_3 h_S_) main_v11 main_c_3
  let main_v13 : IVec S_ 1 := andi main_v8 main_v12
  main_v13
-- ==== Kernel.lean ====
abbrev S2x8x2048x24 : Shape := ⟨4, ![2, 8, 2048, 24]⟩
abbrev S2x8x2048x2048 : Shape := ⟨4, ![2, 8, 2048, 2048]⟩
abbrev S16x2048x24 : Shape := ⟨3, ![16, 2048, 24]⟩
abbrev S1x512x24 : Shape := ⟨3, ![1, 512, 24]⟩
abbrev S1x2048x24 : Shape := ⟨3, ![1, 2048, 24]⟩
abbrev S512x24 : Shape := ⟨2, ![512, 24]⟩
abbrev S2048x24 : Shape := ⟨2, ![2048, 24]⟩
abbrev S512x2048 : Shape := ⟨2, ![512, 2048]⟩

abbrev nBuf : Space → Nat
  | .hbm => 9
  | .vmem => 8
  | .smem => 0
  | _ => 0

abbrev bufTy : (tb : Table) → Fin (tcTables nBuf tb) → BufTy
  | .hbm, ⟨0, _⟩ => ⟨S2x8x2048x24, .f32⟩
  | .hbm, ⟨1, _⟩ => ⟨S2x8x2048x24, .f32⟩
  | .hbm, ⟨2, _⟩ => ⟨S2x8x2048x24, .f32⟩
  | .hbm, ⟨3, _⟩ => ⟨S2x8x2048x2048, .i1⟩
  | .hbm, ⟨4, _⟩ => ⟨S16x2048x24, .f32⟩
  | .hbm, ⟨5, _⟩ => ⟨S16x2048x24, .f32⟩
  | .hbm, ⟨6, _⟩ => ⟨S16x2048x24, .f32⟩
  | .hbm, ⟨7, _⟩ => ⟨S16x2048x24, .f32⟩
  | .hbm, ⟨8, _⟩ => ⟨S2x8x2048x24, .f32⟩
  | .local _ .vmem, ⟨0, _⟩ => ⟨S1x512x24, .f32⟩
  | .local _ .vmem, ⟨1, _⟩ => ⟨S1x512x24, .f32⟩
  | .local _ .vmem, ⟨2, _⟩ => ⟨S1x2048x24, .f32⟩
  | .local _ .vmem, ⟨3, _⟩ => ⟨S1x2048x24, .f32⟩
  | .local _ .vmem, ⟨4, _⟩ => ⟨S1x2048x24, .f32⟩
  | .local _ .vmem, ⟨5, _⟩ => ⟨S1x2048x24, .f32⟩
  | .local _ .vmem, ⟨6, _⟩ => ⟨S1x512x24, .f32⟩
  | .local _ .vmem, ⟨7, _⟩ => ⟨S1x512x24, .f32⟩
  | _, _ => ⟨S2x8x2048x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x8x2048x24_S16x2048x24 : S2x8x2048x24.ShapeCasts S16x2048x24
  inb_S1x512x24_S1x512x24_0_0_0 : ∀ a, (![0, 0, 0] : Fin 3 → Nat) a + S1x512x24.size a ≤ S1x512x24.size a
  h_S1x512x24 : 0 < S1x512x24.numel
  shapeCasts_S1x512x24_S512x24 : S1x512x24.ShapeCasts S512x24
  bitsLt_bf16_f32 : FTy.bits .bf16 < FTy.bits .f32
  inb_S1x2048x24_S1x2048x24_0_0_0 : ∀ a, (![0, 0, 0] : Fin 3 → Nat) a + S1x2048x24.size a ≤ S1x2048x24.size a
  h_S1x2048x24 : 0 < S1x2048x24.numel
  shapeCasts_S1x2048x24_S2048x24 : S1x2048x24.ShapeCasts S2048x24
  shapeCasts_S512x24_S1x512x24 : S512x24.ShapeCasts S1x512x24
  shapeCasts_S16x2048x24_S2x8x2048x24 : S16x2048x24.ShapeCasts S2x8x2048x24
  dot_S512x24_S2048x24_S512x2048_1_1_0_0_n_n_wf : DotDims.WF S512x24 S2048x24 S512x2048 [1] [1] [0] [0] [] []
  dot_S512x2048_S2048x24_S512x24_1_0_0_1_n_n_wf : DotDims.WF S512x2048 S2048x24 S512x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x24.size a ≤ S16x2048x24.size a
  hwx0_0 : ∀ i : grid0.Coords, EltTy.bits .f32 = 32 ∨ (Rect.block (s := S16x2048x24) S1x512x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x24.size a ≤ S16x2048x24.size a
  hwx0_1 : ∀ i : grid0.Coords, EltTy.bits .f32 = 32 ∨ (Rect.block (s := S16x2048x24) S1x2048x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x24.size a ≤ S16x2048x24.size a
  hwx0_2 : ∀ i : grid0.Coords, EltTy.bits .f32 = 32 ∨ (Rect.block (s := S16x2048x24) S1x2048x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x24.size a ≤ S16x2048x24.size a
  hwx0_3 : ∀ i : grid0.Coords, EltTy.bits .f32 = 32 ∨ (Rect.block (s := S16x2048x24) S1x512x24.size (cc0_transform_3 i) (hinb0_3 i)).WholeWords (EltTy.packing .f32)

variable [Facts₀]

def dot_S512x24_S2048x24_S512x2048_1_1_0_0_n_n : DotDims S512x24 S2048x24 S512x2048 where
  lhsContracting := [1]
  rhsContracting := [1]
  lhsNonContracting := [0]
  rhsNonContracting := [0]
  lhsBatch := []
  rhsBatch := []
  wf := dot_S512x24_S2048x24_S512x2048_1_1_0_0_n_n_wf
def dot_S512x2048_S2048x24_S512x24_1_0_0_1_n_n : DotDims S512x2048 S2048x24 S512x24 where
  lhsContracting := [1]
  rhsContracting := [0]
  lhsNonContracting := [0]
  rhsNonContracting := [1]
  lhsBatch := []
  rhsBatch := []
  wf := dot_S512x2048_S2048x24_S512x24_1_0_0_1_n_n_wf

abbrev win0_0 : Pipeline.Window sig grid0 :=
  Pipeline.Window.ofSpec (Memref.whole main_v0) S1x512x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x24 : Shape := ⟨4, ![2, 8, 2048, 24]⟩
abbrev S2x8x2048x2048 : Shape := ⟨4, ![2, 8, 2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2x8x2048x24, .f32⟩
  | .hbm, ⟨1, _⟩ => ⟨S2x8x2048x24, .f32⟩
  | .hbm, ⟨2, _⟩ => ⟨S2x8x2048x24, .f32⟩
  | .hbm, ⟨3, _⟩ => ⟨S2x8x2048x2048, .i1⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S2x8x2048x24, .f32⟩
  | _, _ => ⟨S2x8x2048x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  dot_S2x8x2048x24_S2x8x2048x24_S2x8x2048x2048_3_3_2_2_01_01_wf : DotDims.WF S2x8x2048x24 S2x8x2048x24 S2x8x2048x2048 [3] [3] [2] [2] [0, 1] [0, 1]
  dot_S2x8x2048x2048_S2x8x2048x24_S2x8x2048x24_3_2_2_3_01_01_wf : DotDims.WF S2x8x2048x2048 S2x8x2048x24 S2x8x2048x24 [3] [2] [2] [3] [0, 1] [0, 1]

variable [Facts₀]

def dot_S2x8x2048x24_S2x8x2048x24_S2x8x2048x2048_3_3_2_2_01_01 : DotDims S2x8x2048x24 S2x8x2048x24 S2x8x2048x2048 where
  lhsContracting := [3]
  rhsContracting := [3]
  lhsNonContracting := [2]
  rhsNonContracting := [2]
  lhsBatch := [0, 1]
  rhsBatch := [0, 1]
  wf := dot_S2x8x2048x24_S2x8x2048x24_S2x8x2048x2048_3_3_2_2_01_01_wf
def dot_S2x8x2048x2048_S2x8x2048x24_S2x8x2048x24_3_2_2_3_01_01 : DotDims S2x8x2048x2048 S2x8x2048x24 S2x8x2048x24 where
  lhsContracting := [3]
  rhsContracting := [2]
  lhsNonContracting := [2]
  rhsNonContracting := [3]
  lhsBatch := [0, 1]
  rhsBatch := [0, 1]
  wf := dot_S2x8x2048x2048_S2x8x2048x24_S2x8x2048x24_3_2_2_3_01_01_wf

class Facts : Prop extends Facts₀ where

variable [Facts]
-- ==== Proof.FiniteInputs.lean ====
/-
  Finite inputs are real numbers.

  The arrays hold extended reals: a real number, +∞ or −∞.  The precondition says of each float argument that EVERY
  entry `x` satisfies `|x| < +∞`, where `|x|` is `max x (−x)` and `+∞` is what the single-precision word 0x7F800000
  denotes, and it conjoins the three "every entry" statements.  For an extended real, `|x| < +∞` rules out both
  infinities, since `|+∞| = |−∞| = +∞`; so `x` is a real number.  This module reads that conclusion off the
  precondition for all three arguments; the attention uses it for the first two, the queries and the keys.
-/
import proofs.«162087_j22187801051538_1_alg».proof.Pre_finite_inputs
import proofs.«162087_j22187801051538_1_alg».proof.Proof.Gen.Pre_finite_inputs
import Idealize.ShloMosaic.Lib.ReduceAll
import Idealize.ShloMosaic.Lib.ValueIdx
import Idealize.ShloMosaic.PureOps.Ideal

noncomputable section

namespace Cert.Attn

open Idealize.ShloMosaic Idealize.ShloMosaic.ValueIdx
open Cert.Pre_finite_inputs (S2x8x2048x24 S2x8x2048x2048 S_)

/-! ## One extended real -/

/-- The single-precision word 0x7F800000 denotes +∞. -/
theorem inf_word : Ideal.ofBits .f32 0x7F800000#32 = (⊤ : EReal) := by
  simp [Ideal.ofBits, Ideal.ieee]

/-- An extended real whose absolute value `max x (−x)` lies below +∞ is a real number: at either infinity the
    absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The same, with the comparison as the program writes it: the ordered "less than" of `|x|` against the word of
    +∞ came out 1. -/
theorem real_of_cmp_inf (x : EReal)
    (h : Ideal.cmp .olt (max x (-x)) (Ideal.ofBits .f32 0x7F800000#32) = 1#1) : ∃ r : ℝ, x = (r : EReal) := by
  rw [inf_word] at h
  refine real_of_abs_lt_top x ?_
  -- were `|x| < +∞` false, the comparison would have come out 0
  by_contra hx
  simp [Ideal.cmp, hx] at h

/-! ## One argument: `all (|x| < +∞)` -/

/-- The result of the predicate has rank 0, hence one index only. -/
instance subsingleton_scalar_idx : Subsingleton S_.Idx := ⟨fun a b => funext fun d => d.elim0⟩

/-- `all (|x| < +∞)` as the predicate writes it for one argument: compare `|x|` entry by entry with the constant
    +∞ spread over the whole shape, then reduce the comparisons by "and" over all four axes, starting from 1. -/
abbrev allFinite (x : FVec Ideal S2x8x2048x24 .f32) : IVec S_ 1 :=
  Host.reduce IntOp.andi
    (cmpf .olt (Host.absf x)
      (broadcastInDim S2x8x2048x24 ![] Cert.Pre_finite_inputs.Facts.bcast_S_S2x8x2048x24 (constant S_ .f32 0x7F800000#32)))
    (constantI S_ 1 1#1) Cert.Pre_finite_inputs.Facts.reducesTo_S2x8x2048x24_S_d0_1_2_3 Cert.Pre_finite_inputs.Facts.h_S_

/-- If `all (|x| < +∞)` is 1 then every entry of `x` is a real number: a conjunction that is 1 had only 1s, and
    the comparison at entry `i` is that of `|x i|` with +∞. -/
theorem real_of_allFinite (x : FVec Ideal S2x8x2048x24 .f32) (h : allFinite x ix0 = 1#1) (i : S2x8x2048x24.Idx) :
    ∃ r : ℝ, x i = (r : EReal) :=
  real_of_cmp_inf (x i) (Host.reduce_andi_all _ _ _ _ ix0 h i)

/-! ## The three arguments together -/

/-- The precondition makes every entry of each of the three float arguments a real number.  The predicate is
    `(all (|x0| < +∞) and all (|x1| < +∞)) and all (|x2| < +∞)`; it being 1, each of the three is. -/
theorem all_real_of_pre (x0 x1 x2 : FVec Ideal S2x8x2048x24 .f32) (x3 : IVec S2x8x2048x2048 1)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 : IntOp.andi (IntOp.andi (allFinite x0 ix0) (allFinite x1 ix0)) (allFinite x2 ix0) = 1#1 := congrFun h ix0
  obtain ⟨h01, hv⟩ := IntOp.andi_eq_one.1 h0
  obtain ⟨hq, hk⟩ := IntOp.andi_eq_one.1 h01
  exact ⟨real_of_allFinite x0 hq, real_of_allFinite x1 hk, real_of_allFinite x2 hv⟩

/-- What the attention needs of it: every query entry and every key entry is a real number. -/
theorem real_of_pre (x0 x1 x2 : FVec Ideal S2x8x2048x24 .f32) (x3 : IVec S2x8x2048x2048 1)
    (h : Cert.Pre_finite_inputs.fn (F := Ideal) x0 x1 x2 x3 = fun _ => 1#1) :
    (∀ i, ∃ r : ℝ, x0 i = (r : EReal)) ∧ (∀ i, ∃ r : ℝ, x1 i = (r : EReal)) :=
  ⟨(all_real_of_pre x0 x1 x2 x3 h).1, (all_real_of_pre x0 x1 x2 x3 h).2.1⟩

end Cert.Attn

end
-- ==== Proof.Attention.lean ====
/-
  Tanh attention without normalisation, as a function on the extended reals.

  For a query row `q`, key rows `k j` and a value column `v` (2048 positions, 24 features) one entry of the
  result is `∑ j, tanh (gain · ((∑ e, q e · k j e) · scale)) · v j`, where `scale` is the single-precision number
  nearest 1/√24 and `gain` the one nearest 1/10, each read as the exact real its binary word denotes.  Both
  programs compute this entry: one writes the hyperbolic tangent as a single operation, the other as the quotient
  `(e^m − e^(−m)) / (e^m + e^(−m))`.  On a REAL argument the two agree (`tanh_quotient`); at an infinite argument
  they do not (the quotient is ∞/∞ there), which is why the arguments' finiteness matters: a logit built from real
  queries and keys is real (`logit_real`).
-/
import Idealize.ShloMosaic.PureOps.Ideal
import Idealize.ShloMosaic.Lib.ValueIdx

noncomputable section

namespace Cert.Attn

open Idealize.ShloMosaic Idealize.ShloMosaic.ValueIdx

/-- Batch × head × position × feature: the shape of the three float arguments and of the result. -/
abbrev S4 : Shape := ⟨4, ![2, 8, 2048, 24]⟩
/-- The same with batch and head merged into one axis of 16. -/
abbrev S3 : Shape := ⟨3, ![16, 2048, 24]⟩

/-- The scale of the scores: the single-precision number nearest 1/√24, as the real its word denotes. -/
abbrev scale : EReal := Ideal.ofBits .f32 0x3E5105EC#32
/-- The gain inside the tangent: the single-precision number nearest 1/10, as the real its word denotes. -/
abbrev gain : EReal := Ideal.ofBits .f32 0x3DCCCCCD#32

/-- The argument of the tangent for one query row and one key row. -/
def logit (q k : Fin 24 → EReal) : EReal := gain * ((∑ e : Fin 24, q e * k e) * scale)

/-- One entry of the result: the tangents of the logits against every key, weighted by the value column. -/
def entry (q : Fin 24 → EReal) (k : Fin 2048 → Fin 24 → EReal) (v : Fin 2048 → EReal) : EReal :=
  ∑ j : Fin 2048, Ideal.tanh (logit q (k j)) * v j

/-- The result over batch × head × position × feature. -/
def attn4 (Q K V : S4.Idx → EReal) : S4.Idx → EReal := fun i =>
  entry (fun e => Q (ix4 (i 0 : Fin 2) (i 1 : Fin 8) (i 2 : Fin 2048) e))
    (fun j e => K (ix4 (i 0 : Fin 2) (i 1 : Fin 8) j e))
    (fun j => V (ix4 (i 0 : Fin 2) (i 1 : Fin 8) j (i 3 : Fin 24)))

/-- The result with batch and head merged. -/
def attn3 (A B C : S3.Idx → EReal) : S3.Idx → EReal := fun i =>
  entry (fun e => A (ix3 (i 0 : Fin 16) (i 1 : Fin 2048) e))
    (fun j e => B (ix3 (i 0 : Fin 16) j e))
    (fun j => C (ix3 (i 0 : Fin 16) j (i 2 : Fin 24)))

/-! ## The tangent as a quotient of exponentials, on the reals -/

/-- On a real `r` the quotient `(e^r − e^(−r)) / (e^r + e^(−r))`, formed in the extended reals, is `tanh r`: the
    denominator is a positive real, so the division is the real one. -/
theorem tanh_quotient (r : ℝ) :
    Ideal.div (Ideal.exp (r : EReal) - Ideal.exp (-(r : EReal))) (Ideal.exp (r : EReal) + Ideal.exp (-(r : EReal)))
      = Ideal.tanh (r : EReal) := by
  have hpos : Real.exp r + Real.exp (-r) ≠ 0 := (add_pos (Real.exp_pos r) (Real.exp_pos (-r))).ne'
  rw [← EReal.coe_neg, Ideal.exp_coe, Ideal.exp_coe, ← EReal.coe_sub, ← EReal.coe_add, Ideal.div_coe hpos,
    ← EReal.coe_mul, Ideal.tanh_coe, Real.tanh_eq, mul_one_div]

/-! ## Real arguments give real logits -/

/-- A finite sum of reals, formed in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The scale is a real number. -/
theorem scale_real : ∃ r : ℝ, scale = (r : EReal) :=
  ⟨13698540 * (2 ^ 26)⁻¹, by simp [scale, Ideal.ofBits, Ideal.ieee]⟩

/-- The gain is a real number. -/
theorem gain_real : ∃ r : ℝ, gain = (r : EReal) :=
  ⟨13421773 * (2 ^ 27)⁻¹, by simp [gain, Ideal.ofBits, Ideal.ieee]⟩

/-- A logit of a real query row against a real key row is real. -/
theorem logit_real (q k : Fin 24 → EReal) (hq : ∀ e, ∃ r : ℝ, q e = (r : EReal)) (hk : ∀ e, ∃ r : ℝ, k e = (r : EReal)) :
    ∃ r : ℝ, logit q k = (r : EReal) := by
  choose qr hqr using hq
  choose kr hkr using hk
  obtain ⟨s, hs⟩ := scale_real
  obtain ⟨g, hg⟩ := gain_real
  refine ⟨g * ((∑ e : Fin 24, qr e * kr e) * s), ?_⟩
  unfold logit
  rw [hs, hg, EReal.coe_mul, EReal.coe_mul, ← coe_sum]
  congr 2
  exact Finset.sum_congr rfl fun e _ => by rw [hqr e, hkr e, EReal.coe_mul]

end Cert.Attn

end
-- ==== Proof.ReferenceValue.lean ====
/-
  The reference program, read entry by entry.

  The reference forms the scores `∑ e, Q[b,h,p,e] · K[b,h,j,e]` (a sum over the 24 features `e`), multiplies
  them by the scale and then by the gain, takes the quotient `(e^m − e^(−m)) / (e^m + e^(−m))` of the resulting
  logit `m`, and contracts the quotients with `V` over the 2048 positions `j`:
  the entry at `(b,h,p,f)` is `∑ j, quotient (m j) · V[b,h,j,f]`, where `m j` is the logit of the query row
  `(b,h,p)` against the key row `(b,h,j)`.

  When `Q` and `K` hold real numbers only, every logit is a real number, and on a real number the quotient of
  exponentials is the hyperbolic tangent.  This is the one place where finiteness is used: at an infinite logit
  the quotient would be ∞/∞.  Nothing is asked of `V`.  So the entry is `∑ j, tanh (m j) · V[b,h,j,f]`, which is
  the entry of `attn4`.
-/
import proofs.«162087_j22187801051538_1_alg».proof.Proof.Gen.ReferenceIdeal.Read
import proofs.«162087_j22187801051538_1_alg».proof.Proof.Attention
import Idealize.ShloMosaic.Lib.ValueIdx
import Idealize.ShloMosaic.PureOps.Ideal.Laws

noncomputable section

namespace Cert.Attn

open Idealize.ShloMosaic Idealize.ShloMosaic.ValueIdx Cert.ReferenceIdeal

/-! ## Which elements of the arguments an entry reads -/

/-- The score at `(b,h,p,j)` reads the query at `(b,h,p,e)`: the first contraction keeps batch, head and the
    query's position and runs over the feature `e`. -/
theorem query_index (i : S4.Idx) (j : Fin 2048) (e : Fin 24) :
    Read.lidx_main_v0 (Read.lidx_main_v11 i j) e = ix4 (i 0 : Fin 2) (i 1 : Fin 8) (i 2 : Fin 2048) e :=
  funext fun a => Fin.ext (by match a with | ⟨0, _⟩ => rfl | ⟨1, _⟩ => rfl | ⟨2, _⟩ => rfl | ⟨3, _⟩ => rfl)

/-- The score at `(b,h,p,j)` reads the key at `(b,h,j,e)`: the key's position is the score's last coordinate. -/
theorem key_index (i : S4.Idx) (j : Fin 2048) (e : Fin 24) :
    Read.ridx_main_v0 (Read.lidx_main_v11 i j) e = ix4 (i 0 : Fin 2) (i 1 : Fin 8) j e :=
  funext fun a => Fin.ext (by match a with | ⟨0, _⟩ => rfl | ⟨1, _⟩ => rfl | ⟨2, _⟩ => rfl | ⟨3, _⟩ => rfl)

/-- The second contraction reads the value at `(b,h,j,f)`: it runs over the position `j` and keeps the
    result's feature `f`. -/
theorem value_index (i : S4.Idx) (j : Fin 2048) :
    Read.ridx_main_v11 i j = ix4 (i 0 : Fin 2) (i 1 : Fin 8) j (i 3 : Fin 24) :=
  funext fun a => Fin.ext (by match a with | ⟨0, _⟩ => rfl | ⟨1, _⟩ => rfl | ⟨2, _⟩ => rfl | ⟨3, _⟩ => rfl)

/-! ## The logit and its tangent -/

/-- The argument of the exponentials at `(b,h,p,j)` is the logit of the query row `(b,h,p)` against the key row
    `(b,h,j)`: the sum over the features, times the scale, times the gain. -/
theorem reference_logit (Q K : FVec Ideal S4 .f32) (i : S4.Idx) (j : Fin 2048) :
    Read.val_main_v4 (F := Ideal) Q K (Read.lidx_main_v11 i j)
      = logit (fun e => Q (ix4 (i 0 : Fin 2) (i 1 : Fin 8) (i 2 : Fin 2048) e))
          (fun e => K (ix4 (i 0 : Fin 2) (i 1 : Fin 8) j e)) := by
  rw [Read.val_main_v4_apply, Read.val_main_v3_apply, Read.val_main_cst_0_apply, Read.val_main_v2_apply,
    Read.val_main_v1_apply, Read.val_main_cst_apply, Read.val_main_v0_apply]
  simp only [Ideal.mulf_def, Ideal.ofBits_def, query_index, key_index]
  rfl

/-- With real queries and keys the quotient of exponentials that the reference forms at `(b,h,p,j)` is the
    hyperbolic tangent of the logit: the logit is then a real number, and there the two agree. -/
theorem reference_weight (Q K : FVec Ideal S4 .f32)
    (hQ : ∀ i, ∃ r : ℝ, Q i = (r : EReal)) (hK : ∀ i, ∃ r : ℝ, K i = (r : EReal)) (i : S4.Idx) (j : Fin 2048) :
    Read.val_main_v10 (F := Ideal) Q K (Read.lidx_main_v11 i j)
      = Ideal.tanh (logit (fun e => Q (ix4 (i 0 : Fin 2) (i 1 : Fin 8) (i 2 : Fin 2048) e))
          (fun e => K (ix4 (i 0 : Fin 2) (i 1 : Fin 8) j e))) := by
  rw [Read.val_main_v10_apply, Read.val_main_v8_apply, Read.val_main_v9_apply, Read.val_main_v5_apply,
    Read.val_main_v7_apply, Read.val_main_v6_apply, reference_logit]
  simp only [Ideal.subf_def, Ideal.addf_def, Ideal.hostDivf_def, Ideal.hostUnary_exp_def, Ideal.hostNegf_def,
    Ideal.negf_def]
  obtain ⟨r, hr⟩ := logit_real (fun e => Q (ix4 (i 0 : Fin 2) (i 1 : Fin 8) (i 2 : Fin 2048) e))
    (fun e => K (ix4 (i 0 : Fin 2) (i 1 : Fin 8) j e)) (fun _ => hQ _) (fun _ => hK _)
  rw [hr]
  exact tanh_quotient r

/-! ## The sum over the positions -/

/-- The reference's result is the tanh attention of its arguments when the queries and the keys are real. -/
theorem reference_eq_attn4 (Q K V : FVec Ideal S4 .f32)
    (hQ : ∀ i, ∃ r : ℝ, Q i = (r : EReal)) (hK : ∀ i, ∃ r : ℝ, K i = (r : EReal)) :
    Cert.ReferenceIdeal.Read.val_main_v11 (F := Ideal) Q K V = attn4 Q K V := by
  funext i
  rw [Read.val_main_v11_apply]
  unfold attn4 entry
  refine Finset.sum_congr rfl fun j _ => ?_
  rw [reference_weight Q K hQ hK i j, value_index]
  rfl

end Cert.Attn

end
-- ==== Proof.KernelBlock.lean ====
/-
  What one launch of the kernel body stores, read entry by entry.

  The body holds one query tile `x0` (1 × 512 × 24) and the whole keys `x1` and values `x2` of one (batch, head) pair
  (1 × 2048 × 24 each).  It forms the scores `x0 · x1ᵀ` (a sum over the 24 features), multiplies by the scale, then by
  the gain, takes the hyperbolic tangent, and multiplies the 512 × 2048 result with `x2` (a sum over the 2048
  positions).  Read on the extended reals, where a change of float format is the identity and a matrix product into a
  zero accumulator is the plain sum of products, entry (q, d) of what is stored is `Cert.Attn.entry` of query row
  `q`, all the key rows and value column `d`.
-/
import proofs.«162087_j22187801051538_1_alg».proof.Proof.Gen.KernelIdeal.Skeleton
import proofs.«162087_j22187801051538_1_alg».proof.Proof.Attention
import Idealize.ShloMosaic.Lib.Pipeline.Value
import Idealize.ShloMosaic.Lib.ValueIdx
import Idealize.ShloMosaic.PureOps.Ideal.Laws

noncomputable section

namespace Cert.Attn.Block

open Cert.KernelIdeal Cert.KernelIdeal.Gen Idealize.ShloMosaic Idealize.ShloMosaic.ValueIdx

/-! ## The scores: queries against keys, contracted over the features -/

/-- The query operand is read at the score's row … -/
theorem scores_lhs0 (i : S512x2048.Idx) (c : dot_S512x24_S2048x24_S512x2048_1_1_0_0_n_n.contr.Idx) :
    (dot_S512x24_S2048x24_S512x2048_1_1_0_0_n_n.lhsIdx i c 0).val = (i 0).val := by
  unfold DotDims.lhsIdx
  rw [dif_neg (show ¬(0 : Fin S512x24.rank) ∈ dot_S512x24_S2048x24_S512x2048_1_1_0_0_n_n.lhsBatch by decide),
    dif_pos (show (0 : Fin S512x24.rank) ∈ dot_S512x24_S2048x24_S512x2048_1_1_0_0_n_n.lhsNonContracting by decide)]
  rfl
/-- … and at the contracted feature; -/
theorem scores_lhs1 (i : S512x2048.Idx) (c : dot_S512x24_S2048x24_S512x2048_1_1_0_0_n_n.contr.Idx) :
    (dot_S512x24_S2048x24_S512x2048_1_1_0_0_n_n.lhsIdx i c 1).val = (c ⟨0, by decide⟩).val :=
  dot_S512x24_S2048x24_S512x2048_1_1_0_0_n_n.lhsIdx_val_of_single rfl i c
/-- the key operand at the score's column, which is the key's position, … -/
theorem scores_rhs0 (i : S512x2048.Idx) (c : dot_S512x24_S2048x24_S512x2048_1_1_0_0_n_n.contr.Idx) :
    (dot_S512x24_S2048x24_S512x2048_1_1_0_0_n_n.rhsIdx i c 0).val = (i 1).val := by
  unfold DotDims.rhsIdx
  rw [dif_neg (show ¬(0 : Fin S2048x24.rank) ∈ dot_S512x24_S2048x24_S512x2048_1_1_0_0_n_n.rhsBatch by decide),
    dif_pos (show (0 : Fin S2048x24.rank) ∈ dot_S512x24_S2048x24_S512x2048_1_1_0_0_n_n.rhsNonContracting by decide)]
  rfl
/-- … and at the same feature. -/
theorem scores_rhs1 (i : S512x2048.Idx) (c : dot_S512x24_S2048x24_S512x2048_1_1_0_0_n_n.contr.Idx) :
    (dot_S512x24_S2048x24_S512x2048_1_1_0_0_n_n.rhsIdx i c 1).val = (c ⟨0, by decide⟩).val :=
  dot_S512x24_S2048x24_S512x2048_1_1_0_0_n_n.rhsIdx_val_of_single rfl i c

/-- Entry (q, k) of the score product into a zero accumulator: `∑ e, a (q, e) · b (k, e)`. -/
theorem scores_apply (a : FVec Ideal S512x24 .bf16) (b : FVec Ideal S2048x24 .bf16) (q : Fin 512) (k : Fin 2048) :
    matmul dot_S512x24_S2048x24_S512x2048_1_1_0_0_n_n none a b (constant (F := Ideal) S512x2048 .f32 0x00000000#32) (ix2 q k)
      = ∑ e : Fin 24, a (ix2 q e) * b (ix2 k e) := by
  simp only [matmul]
  rw [Ideal.matmul_constant_zero_apply,
    ← Equiv.sum_comp (contrEquiv1 dot_S512x24_S2048x24_S512x2048_1_1_0_0_n_n 24 rfl rfl).symm]
  refine Finset.sum_congr rfl fun e _ => ?_
  have he := contrEquiv1_symm_val dot_S512x24_S2048x24_S512x2048_1_1_0_0_n_n 24 rfl rfl e
  have el : dot_S512x24_S2048x24_S512x2048_1_1_0_0_n_n.lhsIdx (ix2 q k)
      ((contrEquiv1 dot_S512x24_S2048x24_S512x2048_1_1_0_0_n_n 24 rfl rfl).symm e) = ix2 q e :=
    funext fun x => Fin.ext (by
      match x with
      | ⟨0, _⟩ => exact scores_lhs0 _ _
      | ⟨1, _⟩ => exact (scores_lhs1 _ _).trans he)
  have er : dot_S512x24_S2048x24_S512x2048_1_1_0_0_n_n.rhsIdx (ix2 q k)
      ((contrEquiv1 dot_S512x24_S2048x24_S512x2048_1_1_0_0_n_n 24 rfl rfl).symm e) = ix2 k e :=
    funext fun x => Fin.ext (by
      match x with
      | ⟨0, _⟩ => exact scores_rhs0 _ _
      | ⟨1, _⟩ => exact (scores_rhs1 _ _).trans he)
  rw [el, er]

/-! ## The weighted sum: tangents against values, contracted over the positions -/

/-- The weight operand is read at the result's row … -/
theorem mix_lhs0 (i : S512x24.Idx) (c : dot_S512x2048_S2048x24_S512x24_1_0_0_1_n_n.contr.Idx) :
    (dot_S512x2048_S2048x24_S512x24_1_0_0_1_n_n.lhsIdx i c 0).val = (i 0).val := by
  unfold DotDims.lhsIdx
  rw [dif_neg (show ¬(0 : Fin S512x2048.rank) ∈ dot_S512x2048_S2048x24_S512x24_1_0_0_1_n_n.lhsBatch by decide),
    dif_pos (show (0 : Fin S512x2048.rank) ∈ dot_S512x2048_S2048x24_S512x24_1_0_0_1_n_n.lhsNonContracting by decide)]
  rfl
/-- … and at the contracted position; -/
theorem mix_lhs1 (i : S512x24.Idx) (c : dot_S512x2048_S2048x24_S512x24_1_0_0_1_n_n.contr.Idx) :
    (dot_S512x2048_S2048x24_S512x24_1_0_0_1_n_n.lhsIdx i c 1).val = (c ⟨0, by decide⟩).val :=
  dot_S512x2048_S2048x24_S512x24_1_0_0_1_n_n.lhsIdx_val_of_single rfl i c
/-- the value operand at the same position … -/
theorem mix_rhs0 (i : S512x24.Idx) (c : dot_S512x2048_S2048x24_S512x24_1_0_0_1_n_n.contr.Idx) :
    (dot_S512x2048_S2048x24_S512x24_1_0_0_1_n_n.rhsIdx i c 0).val = (c ⟨0, by decide⟩).val :=
  dot_S512x2048_S2048x24_S512x24_1_0_0_1_n_n.rhsIdx_val_of_single rfl i c
/-- … and at the result's feature. -/
theorem mix_rhs1 (i : S512x24.Idx) (c : dot_S512x2048_S2048x24_S512x24_1_0_0_1_n_n.contr.Idx) :
    (dot_S512x2048_S2048x24_S512x24_1_0_0_1_n_n.rhsIdx i c 1).val = (i 1).val := by
  unfold DotDims.rhsIdx
  rw [dif_neg (show ¬(1 : Fin S2048x24.rank) ∈ dot_S512x2048_S2048x24_S512x24_1_0_0_1_n_n.rhsBatch by decide),
    dif_pos (show (1 : Fin S2048x24.rank) ∈ dot_S512x2048_S2048x24_S512x24_1_0_0_1_n_n.rhsNonContracting by decide)]
  rfl

/-- Entry (q, d) of the second product into a zero accumulator: `∑ j, w (q, j) · v (j, d)`. -/
theorem mix_apply (w : FVec Ideal S512x2048 .bf16) (v : FVec Ideal S2048x24 .bf16) (q : Fin 512) (d : Fin 24) :
    matmul dot_S512x2048_S2048x24_S512x24_1_0_0_1_n_n none w v (constant (F := Ideal) S512x24 .f32 0x00000000#32) (ix2 q d)
      = ∑ j : Fin 2048, w (ix2 q j) * v (ix2 j d) := by
  simp only [matmul]
  rw [Ideal.matmul_constant_zero_apply,
    ← Equiv.sum_comp (contrEquiv1 dot_S512x2048_S2048x24_S512x24_1_0_0_1_n_n 2048 rfl rfl).symm]
  refine Finset.sum_congr rfl fun j _ => ?_
  have hj := contrEquiv1_symm_val dot_S512x2048_S2048x24_S512x24_1_0_0_1_n_n 2048 rfl rfl j
  have el : dot_S512x2048_S2048x24_S512x24_1_0_0_1_n_n.lhsIdx (ix2 q d)
      ((contrEquiv1 dot_S512x2048_S2048x24_S512x24_1_0_0_1_n_n 2048 rfl rfl).symm j) = ix2 q j :=
    funext fun x => Fin.ext (by
      match x with
      | ⟨0, _⟩ => exact mix_lhs0 _ _
      | ⟨1, _⟩ => exact (mix_lhs1 _ _).trans hj)
  have er : dot_S512x2048_S2048x24_S512x24_1_0_0_1_n_n.rhsIdx (ix2 q d)
      ((contrEquiv1 dot_S512x2048_S2048x24_S512x24_1_0_0_1_n_n 2048 rfl rfl).symm j) = ix2 j d :=
    funext fun x => Fin.ext (by
      match x with
      | ⟨0, _⟩ => exact (mix_rhs0 _ _).trans hj
      | ⟨1, _⟩ => exact mix_rhs1 _ _)
  rw [el, er]

/-! ## The tile and the whole keys and values without their leading unit axis -/

/-- A 1 × n × 24 block viewed as n × 24 reads (0, r, e) at (r, e). -/
theorem dropUnit_apply {α : Type} {n : Nat} (x : (⟨3, ![1, n, 24]⟩ : Shape).Idx → α)
    (h : (⟨3, ![1, n, 24]⟩ : Shape).ShapeCasts ⟨2, ![n, 24]⟩) (r : Fin n) (e : Fin 24) :
    shapeCast (⟨2, ![n, 24]⟩ : Shape) x h (ix2 r e) = x (ix3 (0 : Fin 1) r e) := by
  rw [shapeCast_dropUnit_apply ![n, 24] x h (ix2 r e)]
  congr 1
  funext a
  match a with
  | ⟨0, _⟩ => rfl
  | ⟨1, _⟩ => rfl
  | ⟨2, _⟩ => rfl

/-! ## The stored block -/

/-- Entry (q, d) of the block the body stores is the attention entry of query row `q` of the tile, the key rows and
    value column `d`. -/
theorem payload_apply (x0 : Vec Ideal S1x512x24 .f32) (x1 x2 : Vec Ideal S1x2048x24 .f32) (u : Fin 1) (q : Fin 512) (d : Fin 24) :
    k0_pay1 (F := Ideal) x0 x1 x2 (ix3 u q d)
      = entry (fun e => x0 (ix3 (0 : Fin 1) q e)) (fun j e => x1 (ix3 (0 : Fin 1) j e)) (fun j => x2 (ix3 (0 : Fin 1) j d)) := by
  unfold k0_pay1
  refine (shapeCast_addUnit_apply ![512, 24] _ shapeCasts_S512x24_S1x512x24 (ix3 u q d)).trans ?_
  have hi : (fun a : Fin 2 => (ix3 u q d : S1x512x24.Idx) a.succ) = ix2 q d := by
    funext a
    match a with
    | ⟨0, _⟩ => rfl
    | ⟨1, _⟩ => rfl
  rw [hi]
  refine (mix_apply _ _ q d).trans ?_
  unfold entry logit
  refine Finset.sum_congr rfl fun j _ => ?_
  show Ideal.tanh (gain * (_ * scale)) * _ = _
  rw [scores_apply]
  simp only [truncf_apply, dropUnit_apply]

end Cert.Attn.Block

end
-- ==== Proof.MergeHeads.lean ====
/-
  Merging the batch and head axes, and splitting them again.

  The arguments are laid out batch × head × position × feature (2 × 8 × 2048 × 24); the kernel is launched on the
  same numbers viewed as 16 × 2048 × 24, pair (b, h) becoming row `8·b + h`, and its result is viewed back.  Both views
  keep the row-major order, so entry (8·b + h, s, e) of the merged array is entry (b, h, s, e) of the original.
  Since one attention entry only ever combines rows of ONE (batch, head) pair, attention commutes with the two views:
  attention over the merged arrays, split again, is attention over the originals (`attn3_merge`).
-/
import proofs.«162087_j22187801051538_1_alg».proof.Proof.Attention
import Idealize.ShloMosaic.Lib.Pipeline.Value

noncomputable section

namespace Cert.Attn

open Idealize.ShloMosaic Idealize.ShloMosaic.ValueIdx

/-- The row of the merged axis that holds pair (b, h). -/
def pair (b : Fin 2) (h : Fin 8) : Fin 16 := ⟨b.val * 8 + h.val, by omega⟩

/-- The merged view at (8·b + h, s, e) reads the original at (b, h, s, e). -/
theorem merge_apply {α : Type} (x : S4.Idx → α) (hc : S4.ShapeCasts S3) (b : Fin 2) (h : Fin 8) (s : Fin 2048) (e : Fin 24) :
    shapeCast S3 x hc (ix3 (pair b h) s e) = x (ix4 b h s e) := by
  refine shapeCast_apply x hc (ix3 (pair b h) s e) (ix4 b h s e) ?_
  rw [Shape.rowMajor_val_four, Shape.rowMajor_val_three]
  rfl

/-- The split view at (b, h, s, e) reads the merged array at (8·b + h, s, e). -/
theorem split_apply {α : Type} (y : S3.Idx → α) (hc : S3.ShapeCasts S4) (b : Fin 2) (h : Fin 8) (s : Fin 2048) (e : Fin 24) :
    shapeCast S4 y hc (ix4 b h s e) = y (ix3 (pair b h) s e) := by
  refine shapeCast_apply y hc (ix4 b h s e) (ix3 (pair b h) s e) ?_
  rw [Shape.rowMajor_val_four, Shape.rowMajor_val_three]
  rfl

/-- Attention over the merged arrays, split again, is attention over the originals. -/
theorem attn3_merge (Q K V : S4.Idx → EReal) (hc : S4.ShapeCasts S3) (hc' : S3.ShapeCasts S4) :
    shapeCast S4 (attn3 (shapeCast S3 Q hc) (shapeCast S3 K hc) (shapeCast S3 V hc)) hc' = attn4 Q K V := by
  funext i
  obtain ⟨b, h, s, d, rfl⟩ : ∃ (b : Fin 2) (h : Fin 8) (s : Fin 2048) (d : Fin 24), i = ix4 b h s d :=
    ⟨i 0, i 1, i 2, i 3, eq_ix4 i⟩
  rw [split_apply]
  unfold attn3 attn4
  show entry (fun e => shapeCast S3 Q hc (ix3 (pair b h) s e)) (fun j e => shapeCast S3 K hc (ix3 (pair b h) j e))
      (fun j => shapeCast S3 V hc (ix3 (pair b h) j d))
    = entry (fun e => Q (ix4 b h s e)) (fun j e => K (ix4 b h j e)) (fun j => V (ix4 b h j d))
  simp only [merge_apply]

end Cert.Attn

end
-- ==== Proof.KernelArray.lean ====
/-
  From the blocks the kernel's launches write to the whole result array, and through the two changes of view around
  the launches.

  The launch grid is 16 × 4: point (g, r) is given query tile `r` (512 positions) of merged row `g` and ALL the keys
  and values of row `g`, and writes tile `r` of row `g` of the result.  Every entry it writes is the attention entry
  of the merged arrays at that place (the block lemma of the sibling module), the 64 tiles cover the 16 × 2048 × 24
  result, so the result array is attention of the three merged arrays.  Those are the arguments with batch and head
  merged, and the program's result is the array with the two axes split again; attention commutes with both views.
-/
import proofs.«162087_j22187801051538_1_alg».proof.Proof.Gen.KernelIdeal.Frame
import proofs.«162087_j22187801051538_1_alg».proof.Proof.KernelBlock
import proofs.«162087_j22187801051538_1_alg».proof.Proof.MergeHeads
import Idealize.ShloMosaic.Lib.Pipeline.Value
import Idealize.ShloMosaic.Lib.StableHlo.Run
import Idealize.ShloMosaic.Lib.Tactic

noncomputable section

namespace Cert.Attn.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## One block entry, over plain arrays -/

/-- If a query tile `x0`, keys `x1` and values `x2` are rows of three merged arrays `A`, `B`, `C` — the tile's row `y 1`
    being row `i 1` of `A`'s slab `i 0`, the keys and values the whole slab `i 0` of `B` and `C` — then entry `y` of
    the stored block is attention of `A`, `B`, `C` at `i`. -/
theorem block_entry (A B C : S3.Idx → EReal) (x0 : Vec Ideal S1x512x24 .f32) (x1 x2 : Vec Ideal S1x2048x24 .f32)
    (y : S1x512x24.Idx) (i : S3.Idx)
    (h0 : ∀ e : Fin 24, x0 (ix3 (0 : Fin 1) (y 1 : Fin 512) e) = A (ix3 (i 0 : Fin 16) (i 1 : Fin 2048) e))
    (h1 : ∀ (j : Fin 2048) (e : Fin 24), x1 (ix3 (0 : Fin 1) j e) = B (ix3 (i 0 : Fin 16) j e))
    (h2 : ∀ (j : Fin 2048) (e : Fin 24), x2 (ix3 (0 : Fin 1) j e) = C (ix3 (i 0 : Fin 16) j e))
    (hd : (y 2).val = (i 2).val) :
    k0_pay1 (F := Ideal) x0 x1 x2 y = attn3 A B C i := by
  refine (congrArg (k0_pay1 (F := Ideal) x0 x1 x2) (eq_ix3 y)).trans ?_
  refine (Block.payload_apply x0 x1 x2 (y 0) (y 1) (y 2)).trans ?_
  unfold attn3
  have hd' : (y 2 : Fin 24) = (i 2 : Fin 24) := Fin.ext hd
  refine congr (congr (congrArg entry (funext h0)) (funext fun j => funext (h1 j))) (funext fun j => ?_)
  rw [h2 j (y 2), hd']

/-! ## The index maps, decided over the 64 grid points -/

/-- The query window moves with the output window; the key and value windows follow its first axis only and sit at
    block 0 on the others; the output's block indices stay in 16 × 4 × 1. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 15 ∧ win0_3.index t (1 : Fin 3) ≤ 3 :=
  (by decide +kernel : ∀ t : Fin grid0.N, _)

/-- Every tile of the result is some point's. -/
theorem idx_onto : ∀ (g : Fin 16) (r : Fin 4), ∃ t : Fin cfg0.N, win0_3.index t = ![g.val, r.val, 0] :=
  (by decide +kernel : ∀ (g : Fin 16) (r : Fin 4), ∃ t : Fin grid0.N, win0_3.index t = ![g.val, r.val, 0])

/-! ## The input blocks as rows of the merged arrays -/

/-- The query tile at point `t`: its row `q` is row `512·r + q` of slab `g` of the merged queries, (g, r) the output
    window's block at `t`. -/
theorem tile_apply (c : Dev nD) (t : Fin cfg0.N) (q : Fin 512) (e : Fin 24) (i : S16x2048x24.Idx)
    (h0 : (i 0).val = win0_3.index t (0 : Fin 3)) (h1 : (i 1).val = win0_3.index t (1 : Fin 3) * 512 + q.val)
    (h2 : (i 2).val = e.val) :
    (iblk m c 0 t : Vec Ideal S1x512x24 .f32) (ix3 (0 : Fin 1) q e) = V m c main_v0 i := by
  obtain ⟨e0, e1, e2, -⟩ := idx_facts t
  unfold iblk
  rw [View.read_apply]
  show V m c main_v0 _ = V m c main_v0 i
  refine congrArg (V m c main_v0) ?_
  funext a
  apply Fin.ext
  match a with
  | ⟨0, _⟩ => show win0_0.index t (0 : Fin 3) * 1 + 1 * 0 = (i 0).val; omega
  | ⟨1, _⟩ => show win0_0.index t (1 : Fin 3) * 512 + 1 * q.val = (i 1).val; omega
  | ⟨2, _⟩ => show win0_0.index t (2 : Fin 3) * 24 + 1 * e.val = (i 2).val; omega

/-- The keys at point `t`: the whole slab `g` of the merged keys. -/
theorem keys_apply (c : Dev nD) (t : Fin cfg0.N) (j : Fin 2048) (e : Fin 24) (i : S16x2048x24.Idx)
    (h0 : (i 0).val = win0_3.index t (0 : Fin 3)) (h1 : (i 1).val = j.val) (h2 : (i 2).val = e.val) :
    (iblk m c 1 t : Vec Ideal S1x2048x24 .f32) (ix3 (0 : Fin 1) j e) = V m c main_v1 i := by
  obtain ⟨-, -, -, e0, e1, e2, -⟩ := idx_facts t
  unfold iblk
  rw [View.read_apply]
  show V m c main_v1 _ = V m c main_v1 i
  refine congrArg (V m c main_v1) ?_
  funext a
  apply Fin.ext
  match a with
  | ⟨0, _⟩ => show win0_1.index t (0 : Fin 3) * 1 + 1 * 0 = (i 0).val; omega
  | ⟨1, _⟩ => show win0_1.index t (1 : Fin 3) * 2048 + 1 * j.val = (i 1).val; omega
  | ⟨2, _⟩ => show win0_1.index t (2 : Fin 3) * 24 + 1 * e.val = (i 2).val; omega

/-- The values at point `t`: the whole slab `g` of the merged values. -/
theorem values_apply (c : Dev nD) (t : Fin cfg0.N) (j : Fin 2048) (e : Fin 24) (i : S16x2048x24.Idx)
    (h0 : (i 0).val = win0_3.index t (0 : Fin 3)) (h1 : (i 1).val = j.val) (h2 : (i 2).val = e.val) :
    (iblk m c 2 t : Vec Ideal S1x2048x24 .f32) (ix3 (0 : Fin 1) j e) = V m c main_v2 i := by
  obtain ⟨-, -, -, -, -, -, e0, e1, e2, -⟩ := idx_facts t
  unfold iblk
  rw [View.read_apply]
  show V m c main_v2 _ = V m c main_v2 i
  refine congrArg (V m c main_v2) ?_
  funext a
  apply Fin.ext
  match a with
  | ⟨0, _⟩ => show win0_2.index t (0 : Fin 3) * 1 + 1 * 0 = (i 0).val; omega
  | ⟨1, _⟩ => show win0_2.index t (1 : Fin 3) * 2048 + 1 * j.val = (i 1).val; omega
  | ⟨2, _⟩ => show win0_2.index t (2 : Fin 3) * 24 + 1 * e.val = (i 2).val; omega

/-! ## What a point writes back, and the array after all 64 points -/

/-- Attention of the three merged arrays as the launches find them. -/
abbrev merged (c : Dev nD) : S3.Idx → EReal :=
  attn3 (V m c main_v0) (V m c main_v1) (V m c main_v2)

/-- What point `t` writes back is tile `t` of `merged`. -/
theorem flushed_eq (c : Dev nD) (t : Fin cfg0.N) :
    (dats m 0 c).flushed 3 t = ((cfg0.win 3).blk t).view.read (Elt Ideal) (merged m c) := by
  show (cfg0.win 3).cut (grid0.coords t) ((dats m 0 c).after 3 t) = _
  rw [after0_3]
  unfold out0_3
  rw [View.canon_unit_zero hz3]
  simp only [View.ld_unit_zero (S := S1x512x24) hz3, View.ld_unit_zero (S := S1x2048x24) hz3]
  funext y
  show k0_pay1 (F := Ideal) (iblk m c 0 t) (iblk m c 1 t) (iblk m c 2 t) y
    = merged m c (((cfg0.win 3).blk t).view.emb y)
  have hy0 : (y 0).val < 1 := (y 0).isLt
  refine block_entry (V m c main_v0) (V m c main_v1) (V m c main_v2) (iblk m c 0 t) (iblk m c 1 t) (iblk m c 2 t) y
    (((cfg0.win 3).blk t).view.emb y) (fun e => ?_) (fun j e => ?_) (fun j e => ?_) ?_
  · refine tile_apply m c t _ e _ ?_ ?_ rfl
    · show win0_3.index t (0 : Fin 3) * 1 + 1 * (y 0).val = win0_3.index t (0 : Fin 3); omega
    · show win0_3.index t (1 : Fin 3) * 512 + 1 * (y 1).val = win0_3.index t (1 : Fin 3) * 512 + (y 1).val; omega
  · refine keys_apply m c t j e _ ?_ rfl rfl
    show win0_3.index t (0 : Fin 3) * 1 + 1 * (y 0).val = win0_3.index t (0 : Fin 3); omega
  · refine values_apply m c t j e _ ?_ rfl rfl
    show win0_3.index t (0 : Fin 3) * 1 + 1 * (y 0).val = win0_3.index t (0 : Fin 3); omega
  · obtain ⟨-, -, -, -, -, -, -, -, -, e3, -⟩ := idx_facts t
    show (y 2).val = win0_3.index t (2 : Fin 3) * 24 + 1 * (y 2).val
    omega

/-- An index of the result array is in point `t`'s tile iff each coordinate is in the tile's range. -/
theorem mem_blk (t : Fin cfg0.N) (i : S16x2048x24.Idx) :
    i ∈ ((cfg0.win 3).blk t).view.set ↔ ∀ a : Fin 3, win0_3.index t a * S1x512x24.size a ≤ (i a).val
      ∧ (i a).val < win0_3.index t a * S1x512x24.size a + S1x512x24.size a := by
  show i ∈ ((View.whole main_v3).slice (win0_3.rect t)).set ↔ _
  rw [View.set_slice_whole, Rect.mem_set_unit]
  exact Iff.rfl

/-- Every index of the result array is in the tile of the point at (its slab, its position / 512). -/
theorem cover (i : S16x2048x24.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 24 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 24 ≤ (i 2).val ∧ (i 2).val < win0_3.index t (2 : Fin 3) * 24 + 24
    omega

/-- The result array after the launches is attention of the merged arrays. -/
theorem final (c : Dev nD) : (dats m 0 c).arrAt 3 cfg0.N = merged m c :=
  (dats m 0 c).arrAt_eq_of_cover 3 (merged m c) (fun t _ => flushed_eq m c t) cover

/-! ## The two changes of view around the launches -/

/-- The launches find the queries with batch and head merged, … -/
theorem V_main_v0 (c : Dev nD) : (V m c main_v0 : S16x2048x24.Idx → EReal)
    = shapeCast S16x2048x24 (m ((c : Thread nD τ).loc main_arg0)) shapeCasts_S2x8x2048x24_S16x2048x24 := by
  show StableHlo.after hostOps0 (fun b => m (c, b)) (Proc.devRef .tc main_v0) = _
  after_results
  rfl
/-- … the keys likewise, … -/
theorem V_main_v1 (c : Dev nD) : (V m c main_v1 : S16x2048x24.Idx → EReal)
    = shapeCast S16x2048x24 (m ((c : Thread nD τ).loc main_arg1)) shapeCasts_S2x8x2048x24_S16x2048x24 := by
  show StableHlo.after hostOps0 (fun b => m (c, b)) (Proc.devRef .tc main_v1) = _
  after_results
  rfl
/-- … and the values. -/
theorem V_main_v2 (c : Dev nD) : (V m c main_v2 : S16x2048x24.Idx → EReal)
    = shapeCast S16x2048x24 (m ((c : Thread nD τ).loc main_arg2)) shapeCasts_S2x8x2048x24_S16x2048x24 := by
  show StableHlo.after hostOps0 (fun b => m (c, b)) (Proc.devRef .tc main_v2) = _
  after_results
  rfl

/-- The program's result is the launches' result array with batch and head split again. -/
theorem tail_main_v4 (c : Dev nD) :
    (Pipeline.afterTail₀ cfgs (dats m) 0 (V0 m) [hostOps1] c main_v4 : S2x8x2048x24.Idx → EReal)
      = shapeCast S2x8x2048x24 ((dats m 0 c).arrAt 3 cfg0.N) shapeCasts_S16x2048x24_S2x8x2048x24 := by
  unfold Pipeline.afterTail₀
  show StableHlo.after hostOps1 _ (Proc.devRef .tc main_v4) = _
  after_results
  exact congrArg (fun X => shapeCast S2x8x2048x24 X shapeCasts_S16x2048x24_S2x8x2048x24)
    (Pipeline.withArrays_arr spec0 launch0.win.arr_inj c (V0 m c) (fun w => (dats m 0 c).arrAt w cfg0.N) 3)

/-- So the program's result is attention of the arguments. -/
theorem result_eq (c : Dev nD) :
    (Pipeline.afterTail₀ cfgs (dats m) 0 (V0 m) [hostOps1] c main_v4 : S2x8x2048x24.Idx → EReal)
      = attn4 (m ((c : Thread nD τ).loc main_arg0)) (m ((c : Thread nD τ).loc main_arg1)) (m ((c : Thread nD τ).loc main_arg2)) := by
  rw [tail_main_v4, final]
  show shapeCast S2x8x2048x24 (attn3 (V m c main_v0) (V m c main_v1) (V m c main_v2)) shapeCasts_S16x2048x24_S2x8x2048x24 = _
  rw [V_main_v0, V_main_v1, V_main_v2]
  exact attn3_merge _ _ _ _ _

/-! ## The run -/

/-- Every weakly fair execution of the program terminates with the result array at attention of the argument arrays
    and the arguments unchanged. -/
theorem run : θ_run defs (onTc (τ := τ) (main (F := Ideal))) ⟨m, fun _ => 0, ρ⟩ fun r => ∀ c : Dev nD,
      r.2.mem ((c.tc : Thread nD τ).loc main_v4)
        = attn4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.Kernel

end
-- ==== Proof.lean ====
/-
  Tanh attention without normalisation: a Pallas kernel against its jnp reference, on the extended reals.

  Over queries, keys and values of shape batch × head × position × feature (2 × 8 × 2048 × 24) both programs compute

      out[b,h,p,f] = ∑ j, tanh (gain · ((∑ e, Q[b,h,p,e] · K[b,h,j,e]) · scale)) · V[b,h,j,f]

  with `scale` the single-precision number nearest 1/√24 and `gain` the one nearest 1/10 (the same two binary words
  in both programs, so neither is ever evaluated).  The kernel merges batch and head, gives each of 16 × 4 launches
  one 512-row query tile and the whole keys and values of its (batch, head) pair, forms the scores and the weighted
  sum as two matrix products around one `tanh`, and splits the axes again; the reference contracts the
  four-dimensional arrays directly and writes the tangent as `(e^m − e^(−m)) / (e^m + e^(−m))`.  The mask argument is
  read by neither.

  The pieces, one module each:
  * `Attention`     — the function above (`attn4`; `attn3` with batch and head merged), and the one law that joins the
                      two programs: on a REAL `m` the quotient of exponentials is `tanh m`.  At `m = ±∞` the quotient
                      is ∞/∞, so finiteness of the queries and keys is used exactly here; nothing is asked of `V`.
  * `FiniteInputs`  — the precondition makes every entry of `Q` and `K` a real number.
  * `ReferenceValue`— the reference's result, read entry by entry, is `attn4` of real-valued `Q`, `K` and any `V`.
  * `KernelBlock`   — entry (q, d) of the block one launch stores is the attention entry of its tile's row `q`.
  * `MergeHeads`    — attention commutes with merging and splitting the batch and head axes.
  * `KernelArray`   — the 64 stored blocks tile the result array, which is therefore `attn3` of the merged arguments;
                      with the two changes of view, the kernel's result is `attn4` of the arguments.
  The three frame claims are the generated frame runs (the reference's is its generated run with the result
  dropped); the idealization rewrote nothing, so `preserves` is `True`.
-/
import proofs.«162087_j22187801051538_1_alg».proof.Defs
import proofs.«162087_j22187801051538_1_alg».proof.Proof.Gen.Kernel
import proofs.«162087_j22187801051538_1_alg».proof.Proof.Gen.Kernel.Skeleton
import proofs.«162087_j22187801051538_1_alg».proof.Proof.Gen.Kernel.Launch
import proofs.«162087_j22187801051538_1_alg».proof.Proof.Gen.Kernel.Points
import proofs.«162087_j22187801051538_1_alg».proof.Proof.Gen.Kernel.Frame
import proofs.«162087_j22187801051538_1_alg».proof.Proof.Gen.KernelIdeal
import proofs.«162087_j22187801051538_1_alg».proof.Proof.Gen.KernelIdeal.Skeleton
import proofs.«162087_j22187801051538_1_alg».proof.Proof.Gen.KernelIdeal.Launch
import proofs.«162087_j22187801051538_1_alg».proof.Proof.Gen.KernelIdeal.Points
import proofs.«162087_j22187801051538_1_alg».proof.Proof.Gen.KernelIdeal.Frame
import proofs.«162087_j22187801051538_1_alg».proof.Proof.Gen.ReferenceIdeal
import proofs.«162087_j22187801051538_1_alg».proof.Proof.Gen.Pre_finite_inputs
import proofs.«162087_j22187801051538_1_alg».proof.Proof.Gen.ReferenceIdeal.Run
import proofs.«162087_j22187801051538_1_alg».proof.Proof.Gen.ReferenceIdeal.Read
import proofs.«162087_j22187801051538_1_alg».proof.Proof.FiniteInputs
import proofs.«162087_j22187801051538_1_alg».proof.Proof.ReferenceValue
import proofs.«162087_j22187801051538_1_alg».proof.Proof.KernelArray
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with finite queries, keys and values, both programs end with the
    result at the tanh attention of the arguments: the kernel for any extended reals, the reference because the
    queries and keys are real. -/
theorem algebraic : Cert.algebraic_KernelIdeal_ReferenceIdeal := by
  intro m ρ m' ρ' hpre hagree
  refine ⟨fun c => Cert.Attn.attn4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1]
  obtain ⟨hQ, hK⟩ := Cert.Attn.real_of_pre _ _ _ _ (hpre c)
  exact Cert.Attn.reference_eq_attn4 _ _ _ hQ hK

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
